-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x512 : Shape := ⟨2, ![8192, 512]⟩
abbrev S2048x2048 : Shape := ⟨2, ![2048, 2048]⟩
abbrev S2048 : Shape := ⟨1, ![2048]⟩
abbrev S4096x512 : Shape := ⟨2, ![4096, 512]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : FVec F S4096 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x2048 .f32) (main_arg1 : FVec F S8192x512 .f32) (main_arg2 : FVec F S2048x2048 .f32) (main_arg3 : FVec F S2048 .f32) (main_arg4 : FVec F S4096x512 .f32) (main_arg5 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8192x2048 : Shape := ⟨2, ![8192, 2048]⟩
abbrev S8192x512 : Shape := ⟨2, ![8192, 512]⟩
abbrev S2048x2048 : Shape := ⟨2, ![2048, 2048]⟩
abbrev S2048 : Shape := ⟨1, ![2048]⟩
abbrev S4096x512 : Shape := ⟨2, ![4096, 512]⟩
abbrev S4096 : Shape := ⟨1, ![4096]⟩
abbrev S2048x512 : Shape := ⟨2, ![2048, 512]⟩
abbrev S512x2048 : Shape := ⟨2, ![512, 2048]⟩
abbrev S_ : Shape := ⟨0, ![]⟩
abbrev S1x2048 : Shape := ⟨2, ![1, 2048]⟩
abbrev S512x512 : Shape := ⟨2, ![512, 512]⟩

abbrev nBuf : Space → Nat
  | .hbm => 20
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x2048, .f32⟩
  | .hbm, ⟨3, _⟩ => ⟨S2048, .f32⟩
  | .hbm, ⟨4, _⟩ => ⟨S4096x512, .f32⟩
  | .hbm, ⟨5, _⟩ => ⟨S4096, .f32⟩
  | .hbm, ⟨6, _⟩ => ⟨S2048x512, .f32⟩
  | .hbm, ⟨7, _⟩ => ⟨S2048, .f32⟩
  | .hbm, ⟨8, _⟩ => ⟨S2048x2048, .f32⟩
  | .hbm, ⟨9, _⟩ => ⟨S2048x2048, .bf16⟩
  | .hbm, ⟨10, _⟩ => ⟨S512x2048, .f32⟩
  | .hbm, ⟨11, _⟩ => ⟨S512x2048, .bf16⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S2048x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4096x512_S2048x512_0_0 : S4096x512.Slices ![0, 0] S2048x512
  slices_S4096_S2048_0 : S4096.Slices ![0] S2048
  transposes_S2048x2048_S2048x2048_1_0 : S2048x2048.Transposes [1, 0] S2048x2048
  bitsLt_bf16_f32 : FTy.bits .bf16 < FTy.bits .f32
  transposes_S2048x512_S512x2048_1_0 : S2048x512.Transposes [1, 0] S512x2048
  reducesTo_S2048x2048_S2048_d1 : S2048x2048.ReducesTo [1] S2048
  h_S_ : 0 < S_.numel
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x512 : Shape := ⟨2, ![8192, 512]⟩
abbrev S2048x2048 : Shape := ⟨2, ![2048, 2048]⟩
abbrev S2048 : Shape := ⟨1, ![2048]⟩
abbrev S4096x512 : Shape := ⟨2, ![4096, 512]⟩
abbrev S4096 : Shape := ⟨1, ![4096]⟩
abbrev S512x4096 : Shape := ⟨2, ![512, 4096]⟩
abbrev S8192x4096 : Shape := ⟨2, ![8192, 4096]⟩
abbrev S1x4096 : Shape := ⟨2, ![1, 4096]⟩
abbrev S_ : Shape := ⟨0, ![]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x2048, .f32⟩
  | .hbm, ⟨3, _⟩ => ⟨S2048, .f32⟩
  | .hbm, ⟨4, _⟩ => ⟨S4096x512, .f32⟩
  | .hbm, ⟨5, _⟩ => ⟨S4096, .f32⟩
  | .hbm, ⟨6, _⟩ => ⟨S512x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S8192x2048, .f32⟩
  | .hbm, ⟨16, _⟩ => ⟨S8192x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x2048_0_0 : S8192x4096.Slices ![0, 0] S8192x2048
  reducesTo_S2048x2048_S2048_d1 : S2048x2048.ReducesTo [1] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  dot_S8192x512_S512x4096_S8192x4096_1_0_0_1_n_n_wf : DotDims.WF S8192x512 S512x4096 S8192x4096 [1] [0] [0] [1] [] []
  dot_S8192x2048_S2048x2048_S8192x2048_1_0_0_1_n_n_wf : DotDims.WF S8192x2048 S2048x2048 S8192x2048 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Modulated.lean ====
/-
  A linear layer whose output is modulated entry by entry, on the extended reals.

  From a batch of inputs `x` ([B, I]), a batch of styles `s` ([B, S]), the two weight matrices already laid out with
  the contracted axis first (`wT` : [I, O], `aT` : [S, O]) and three vectors over the output features (`ab`, `rs`, `bias`),
  the layer's entry at batch row `p` and output feature `q` is

      base · ((enc + ab q) · |enc + ab q| · rs q) + bias q,
      base = ∑ k, x (p, k) · wT (k, q),     enc = ∑ k, s (p, k) · aT (k, q),

  with the products grouped exactly as written (no law of the extended reals is used to regroup them, so nothing
  here asks any value to be finite). |e| is `max e (-e)`.

  An entry depends on the inputs and the styles through its own batch row only: the layer of a block of batch rows is that
  block of rows of the layer (`layer_rows`).
-/
import Idealize.ShloMosaic.PureOps.Ideal.Laws
import Idealize.ShloMosaic.Lib.ValueIdx
import proofs.«154000_j61400852464041_2_alg».proof.Proof.LibPlainDot

noncomputable section

namespace Cert.Modulated

open Idealize.ShloMosaic Idealize.ShloMosaic.ValueIdx Cert.LibPlainDot

/-- One output entry from its five ingredients: the base product `base`, the style product `enc`, and the output
    feature's three scalars. -/
def entry (base enc ab rs bias : EReal) : EReal :=
  base * ((enc + ab) * max (enc + ab) (-(enc + ab)) * rs) + bias

/-- The modulated layer: entry `(p, q)` is `entry` of row `p` of `x` times column `q` of `wT`, row `p` of `s` times
    column `q` of `aT`, and the three vectors at `q`. -/
def layer {B I O S : ℕ} (x : (⟨2, ![B, I]⟩ : Shape).Idx → EReal) (wT : (⟨2, ![I, O]⟩ : Shape).Idx → EReal)
    (s : (⟨2, ![B, S]⟩ : Shape).Idx → EReal) (aT : (⟨2, ![S, O]⟩ : Shape).Idx → EReal) (ab rs bias : Fin O → EReal) :
    (⟨2, ![B, O]⟩ : Shape).Idx → EReal :=
  fun j => entry (rowsTimes x wT j) (rowsTimes s aT j) (ab ⟨(j 1).val, idx2_lt1 j⟩) (rs ⟨(j 1).val, idx2_lt1 j⟩)
    (bias ⟨(j 1).val, idx2_lt1 j⟩)

theorem layer_apply {B I O S : ℕ} (x : (⟨2, ![B, I]⟩ : Shape).Idx → EReal) (wT : (⟨2, ![I, O]⟩ : Shape).Idx → EReal)
    (s : (⟨2, ![B, S]⟩ : Shape).Idx → EReal) (aT : (⟨2, ![S, O]⟩ : Shape).Idx → EReal) (ab rs bias : Fin O → EReal)
    (p : Fin B) (q : Fin O) :
    layer x wT s aT ab rs bias (ix2 p q)
      = entry (∑ k : Fin I, x (ix2 p k) * wT (ix2 k q)) (∑ k : Fin S, s (ix2 p k) * aT (ix2 k q)) (ab q) (rs q) (bias q) := rfl

/-- Batch rows `o, o + 1, …, o + R - 1` of the layer are the layer of those rows of the inputs and of the styles. -/
theorem layer_rows {B R I O S : ℕ} (o : ℕ) (x : (⟨2, ![B, I]⟩ : Shape).Idx → EReal) (xb : (⟨2, ![R, I]⟩ : Shape).Idx → EReal)
    (wT : (⟨2, ![I, O]⟩ : Shape).Idx → EReal) (s : (⟨2, ![B, S]⟩ : Shape).Idx → EReal) (sb : (⟨2, ![R, S]⟩ : Shape).Idx → EReal)
    (aT : (⟨2, ![S, O]⟩ : Shape).Idx → EReal) (ab rs bias : Fin O → EReal)
    (hx : ∀ (y : Fin R) (k : Fin I) (h : o + y.val < B), xb (ix2 y k) = x (ix2 (⟨o + y.val, h⟩ : Fin B) k))
    (hs : ∀ (y : Fin R) (k : Fin S) (h : o + y.val < B), sb (ix2 y k) = s (ix2 (⟨o + y.val, h⟩ : Fin B) k))
    (y : (⟨2, ![R, O]⟩ : Shape).Idx) (i : (⟨2, ![B, O]⟩ : Shape).Idx) (h0 : (i 0).val = o + (y 0).val) (h1 : (i 1).val = (y 1).val) :
    layer xb wT sb aT ab rs bias y = layer x wT s aT ab rs bias i := by
  unfold layer
  rw [rowsTimes_rows o x xb wT hx y i h0 h1, rowsTimes_rows o s sb aT hs y i h0 h1]
  have e : (⟨(y 1).val, idx2_lt1 y⟩ : Fin O) = ⟨(i 1).val, idx2_lt1 i⟩ := Fin.ext h1.symm
  rw [e]

/-- THE LAYER OF THE ARGUMENTS as the two programs are given them: 8192 batch rows of 2048 inputs `x` and of 512 styles
    `s`; the weights `w` [2048, 2048] and the style weights `aw` [4096, 512] with the OUTPUT feature first, so both are read
    transposed; of the style weights and the style offsets `ab` [4096] only the first 2048 output features; the bias `b`;
    and the norms of the weight rows `rs`, a vector over the output features. -/
def ofArgs (x : (⟨2, ![8192, 2048]⟩ : Shape).Idx → EReal) (s : (⟨2, ![8192, 512]⟩ : Shape).Idx → EReal)
    (w : (⟨2, ![2048, 2048]⟩ : Shape).Idx → EReal) (b : (⟨1, ![2048]⟩ : Shape).Idx → EReal)
    (aw : (⟨2, ![4096, 512]⟩ : Shape).Idx → EReal) (ab : (⟨1, ![4096]⟩ : Shape).Idx → EReal)
    (rs : (⟨1, ![2048]⟩ : Shape).Idx → EReal) : (⟨2, ![8192, 2048]⟩ : Shape).Idx → EReal :=
  layer (B := 8192) (I := 2048) (O := 2048) (S := 512) x
    (fun i => w (ix2 (⟨(i 1).val, idx2_lt1 i⟩ : Fin 2048) (⟨(i 0).val, idx2_lt0 i⟩ : Fin 2048)))
    s
    (fun i => aw (ix2 (⟨(i 1).val, Nat.lt_trans (idx2_lt1 i) (by decide)⟩ : Fin 4096) (⟨(i 0).val, idx2_lt0 i⟩ : Fin 512)))
    (fun q => ab (ix1 (⟨q.val, Nat.lt_trans q.isLt (by decide)⟩ : Fin 4096)))
    (fun q => rs (ix1 q))
    (fun q => b (ix1 q))

/-- Its entry at batch row `p` and output feature `q`. -/
theorem ofArgs_apply (x : (⟨2, ![8192, 2048]⟩ : Shape).Idx → EReal) (s : (⟨2, ![8192, 512]⟩ : Shape).Idx → EReal)
    (w : (⟨2, ![2048, 2048]⟩ : Shape).Idx → EReal) (b : (⟨1, ![2048]⟩ : Shape).Idx → EReal)
    (aw : (⟨2, ![4096, 512]⟩ : Shape).Idx → EReal) (ab : (⟨1, ![4096]⟩ : Shape).Idx → EReal)
    (rs : (⟨1, ![2048]⟩ : Shape).Idx → EReal) (p : Fin 8192) (q : Fin 2048) :
    ofArgs x s w b aw ab rs (ix2 p q)
      = entry (∑ k : Fin 2048, x (ix2 p k) * w (ix2 q k))
          (∑ k : Fin 512, s (ix2 p k) * aw (ix2 (⟨q.val, Nat.lt_trans q.isLt (by decide)⟩ : Fin 4096) k))
          (ab (ix1 (⟨q.val, Nat.lt_trans q.isLt (by decide)⟩ : Fin 4096))) (rs (ix1 q)) (b (ix1 q)) := rfl

end Cert.Modulated

end
-- ==== Proof.BodyValue.lean ====
/-
  What the kernel body stores, at the ideal values: the modulated layer of the blocks it loads.

  The body loads a block of 512 batch rows of the inputs and of the styles, the two weight matrices whole (already
  transposed, contracted axis first) and three one-row arrays [1, 2048]; it multiplies each block of rows by its matrix
  into a zero accumulator, adds the second row array to the style product, multiplies that sum by its absolute value and
  by the first row array, multiplies the base product by the result and adds the third row array. The casts to a
  narrower float format are the identity on the extended reals, a shape cast to the same shape is the identity, and a
  one-row array broadcast over 512 rows reads its row at every row. So the stored value is `Modulated.layer` of the
  loaded blocks, the three vectors being the row arrays read along their row.
-/
import proofs.«154000_j61400852464041_2_alg».proof.Proof.Gen.KernelIdeal.Skeleton
import proofs.«154000_j61400852464041_2_alg».proof.Proof.Modulated
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LibPlainDot Cert.Modulated

/-- A one-row array broadcast over the 512 rows of a block reads, at row `p` and column `q`, its own entry `(0, q)`. -/
theorem rowBroadcast_apply (x : FVec Ideal S1x2048 .f32) (p : Fin 512) (q : Fin 2048) :
    broadcastTo S512x2048 x broadcasts_S1x2048_S512x2048 (ix2 p q) = x (ix2 0 q) :=
  broadcastTo_apply x broadcasts_S1x2048_S512x2048 (ix2 p q) (ix2 0 q) (fun a => match a with
    | ⟨0, _⟩ => by show (0 : ℕ) = if (1 : ℕ) = 1 then 0 else p.val; rw [if_pos rfl]
    | ⟨1, _⟩ => by show q.val = if (2048 : ℕ) = 1 then 0 else q.val; rw [if_neg (by decide)])

/-- The base product: the block of input rows (narrowed, which changes nothing here) times the transposed weights, into the
    zero accumulator, is the plain product of rows by columns. -/
theorem base_eq (v0 : Vec Ideal S512x2048 .f32) (v4 : Vec Ideal S2048x2048 .bf16) :
    matmul (F := Ideal) (φ₁ := .bf16) (φ₂ := .bf16) dot_S512x2048_S2048x2048_S512x2048_1_0_0_1_n_n none (truncf .bf16 v0 bitsLt_bf16_f32) v4
        (constant (F := Ideal) S512x2048 .f32 0x00000000#32) = rowsTimes v0 v4 :=
  matmul_zero_plain (M := 512) (K := 2048) (N := 2048) none (truncf .bf16 v0 bitsLt_bf16_f32) v4

/-- The style product, likewise. -/
theorem enc_eq (v2 : Vec Ideal S512x512 .f32) (v6 : Vec Ideal S512x2048 .bf16) :
    matmul (F := Ideal) (φ₁ := .bf16) (φ₂ := .bf16) dot_S512x512_S512x2048_S512x2048_1_0_0_1_n_n none (truncf .bf16 v2 bitsLt_bf16_f32) v6
        (constant (F := Ideal) S512x2048 .f32 0x00000000#32) = rowsTimes v2 v6 :=
  matmul_zero_plain (M := 512) (K := 512) (N := 2048) none (truncf .bf16 v2 bitsLt_bf16_f32) v6

/-- THE STORED VALUE is the modulated layer of the loaded blocks: `v0` the input rows, `v4` the transposed weights, `v2` the
    style rows, `v6` the transposed style weights, `v10` the row added to the style product, `v16` the row of norms,
    `v21` the row added last. -/
theorem payload_eq (v0 : Vec Ideal S512x2048 .f32) (v2 : Vec Ideal S512x512 .f32) (v4 : Vec Ideal S2048x2048 .bf16)
    (v6 : Vec Ideal S512x2048 .bf16) (v10 v16 v21 : Vec Ideal S1x2048 .f32) :
    k0_pay1 (F := Ideal) v0 v2 v4 v6 v10 v16 v21
      = layer (B := 512) (I := 2048) (O := 2048) (S := 512) v0 v4 v2 v6 (fun q => v10 (ix2 0 q)) (fun q => v16 (ix2 0 q)) (fun q => v21 (ix2 0 q)) := by
  funext j
  obtain ⟨p, q, rfl⟩ : ∃ (p : Fin 512) (q : Fin 2048), j = ix2 p q := ⟨j 0, j 1, eq_ix2 j⟩
  unfold k0_pay1
  simp only [shapeCast_self]
  rw [base_eq v0 v4, enc_eq v2 v6]
  show rowsTimes v0 v4 (ix2 p q)
      * (((rowsTimes v2 v6 (ix2 p q) + broadcastTo S512x2048 v10 broadcasts_S1x2048_S512x2048 (ix2 p q))
          * max (rowsTimes v2 v6 (ix2 p q) + broadcastTo S512x2048 v10 broadcasts_S1x2048_S512x2048 (ix2 p q))
              (-(rowsTimes v2 v6 (ix2 p q) + broadcastTo S512x2048 v10 broadcasts_S1x2048_S512x2048 (ix2 p q))))
        * broadcastTo S512x2048 v16 broadcasts_S1x2048_S512x2048 (ix2 p q))
      + broadcastTo S512x2048 v21 broadcasts_S1x2048_S512x2048 (ix2 p q) = _
  rw [rowBroadcast_apply v10 p q, rowBroadcast_apply v16 p q, rowBroadcast_apply v21 p q]
  rfl

end Cert.KernelIdeal.Body

end
-- ==== Proof.HostArrays.lean ====
/-
  What the region finds in the five arrays the host prepares for it, at the ideal values.

  Before the region the host lays out, from the arguments: the weights transposed (and narrowed, which changes nothing on
  the extended reals); the first 2048 rows of the style weights, transposed (and narrowed); the square roots of the
  weight rows' sums of squares as one row [1, 2048]; the first 2048 style offsets as one row; the bias as one row. Read at
  an index: the transposed arrays at `(k, o)` are the originals at `(o, k)`, and each row array at `(0, q)` is its vector
  at `q`. The row of norms is kept as ONE term of the weights (`rowNorms`): the sum under the square root is never opened.
-/
import proofs.«154000_j61400852464041_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The norm of each weight row: the square root of the row's sum of squares (summed from the zero word), as the host
    computes it. -/
def rowNorms (w : FVec Ideal S2048x2048 .f32) : FVec Ideal S2048 .f32 :=
  Host.sqrt (Host.reduceAdd (mulf w w) (constant (F := Ideal) S_ .f32 0x00000000#32) reducesTo_S2048x2048_S2048_d1 h_S_)

/-- A vector [2048] viewed as one row [1, 2048] reads, at `(0, q)`, the vector at `q`. -/
theorem asRow_apply (v : FVec Ideal S2048 .f32) (q : Fin 2048) :
    shapeCast S1x2048 v shapeCasts_S2048_S1x2048 (ix2 0 q) = v (ix1 q) := by
  refine (shapeCast_addUnit_apply ![2048] v shapeCasts_S2048_S1x2048 (ix2 0 q)).trans (congrArg v ?_)
  funext a
  match a with
  | ⟨0, _⟩ => rfl

/-! ## The arrays as terms of the arguments -/

theorem weightsT_term : @Eq (S2048x2048.Idx → EReal) (V m c main_v3)
    (truncf (F := Ideal) .bf16 (transpose S2048x2048 [1, 0] (m ((c : Thread nD τ).loc main_arg2)) transposes_S2048x2048_S2048x2048_1_0) bitsLt_bf16_f32) := by
  dsimp only [Gen.V, Gen.hostOps0]; after_results

theorem styleT_term : @Eq (S512x2048.Idx → EReal) (V m c main_v5)
    (truncf (F := Ideal) .bf16 (transpose S512x2048 [1, 0]
        (extractStridedSlice S2048x512 ![0, 0] (m ((c : Thread nD τ).loc main_arg4)) slices_S4096x512_S2048x512_0_0)
        transposes_S2048x512_S512x2048_1_0) bitsLt_bf16_f32) := by
  dsimp only [Gen.V, Gen.hostOps0]; after_results

theorem norms_term : @Eq (S1x2048.Idx → EReal) (V m c main_v9)
    (shapeCast S1x2048 (rowNorms (m ((c : Thread nD τ).loc main_arg2))) shapeCasts_S2048_S1x2048) := by
  dsimp only [Gen.V, Gen.hostOps0]; after_results; rfl

theorem offsets_term : @Eq (S1x2048.Idx → EReal) (V m c main_v10)
    (shapeCast S1x2048 (extractStridedSlice S2048 ![0] (m ((c : Thread nD τ).loc main_arg5)) slices_S4096_S2048_0) shapeCasts_S2048_S1x2048) := by
  dsimp only [Gen.V, Gen.hostOps0]; after_results; rfl

theorem bias_term : @Eq (S1x2048.Idx → EReal) (V m c main_v11)
    (shapeCast S1x2048 (m ((c : Thread nD τ).loc main_arg3)) shapeCasts_S2048_S1x2048) := by
  dsimp only [Gen.V, Gen.hostOps0]; after_results; rfl

/-! ## Read at an index -/

/-- The transposed weights at `(k, o)` are the weights at `(o, k)`. -/
theorem weightsT_apply (k o : Fin 2048) :
    (V m c main_v3 : S2048x2048.Idx → EReal) (ix2 k o) = (m ((c : Thread nD τ).loc main_arg2) : S2048x2048.Idx → EReal) (ix2 o k) := by
  rw [weightsT_term]
  show transpose S2048x2048 [1, 0] (m ((c : Thread nD τ).loc main_arg2)) transposes_S2048x2048_S2048x2048_1_0 (ix2 k o) = _
  exact transpose_apply [1, 0] _ transposes_S2048x2048_S2048x2048_1_0 (ix2 k o) (ix2 o k) (fun b => match b with
    | ⟨0, _⟩ => rfl
    | ⟨1, _⟩ => rfl)

/-- The transposed style weights at `(k, o)` are the style weights at `(o, k)`, `o` among their first 2048 rows. -/
theorem styleT_apply (k : Fin 512) (o : Fin 2048) :
    (V m c main_v5 : S512x2048.Idx → EReal) (ix2 k o)
      = (m ((c : Thread nD τ).loc main_arg4) : S4096x512.Idx → EReal) (ix2 (⟨o.val, by have := o.isLt; omega⟩ : Fin 4096) k) := by
  rw [styleT_term]
  show transpose S512x2048 [1, 0] (extractStridedSlice S2048x512 ![0, 0] (m ((c : Thread nD τ).loc main_arg4)) slices_S4096x512_S2048x512_0_0)
      transposes_S2048x512_S512x2048_1_0 (ix2 k o) = _
  refine (transpose_apply [1, 0] _ transposes_S2048x512_S512x2048_1_0 (ix2 k o) (ix2 o k) (fun b => match b with
    | ⟨0, _⟩ => rfl
    | ⟨1, _⟩ => rfl)).trans ?_
  exact extractStridedSlice_apply ![0, 0] _ slices_S4096x512_S2048x512_0_0 (ix2 o k) (ix2 (⟨o.val, by have := o.isLt; omega⟩ : Fin 4096) k)
    (fun a => match a with
      | ⟨0, _⟩ => by show o.val = 0 + o.val; omega
      | ⟨1, _⟩ => by show k.val = 0 + k.val; omega)

/-- The row of norms at `(0, q)` is the norm of weight row `q`. -/
theorem norms_apply (q : Fin 2048) :
    (V m c main_v9 : S1x2048.Idx → EReal) (ix2 0 q) = rowNorms (m ((c : Thread nD τ).loc main_arg2)) (ix1 q) := by
  rw [norms_term]; exact asRow_apply _ q

/-- The row of style offsets at `(0, q)` is offset `q`, among the first 2048. -/
theorem offsets_apply (q : Fin 2048) :
    (V m c main_v10 : S1x2048.Idx → EReal) (ix2 0 q)
      = (m ((c : Thread nD τ).loc main_arg5) : S4096.Idx → EReal) (ix1 (⟨q.val, by have := q.isLt; omega⟩ : Fin 4096)) := by
  rw [offsets_term]
  refine (asRow_apply _ q).trans ?_
  exact extractStridedSlice_apply ![0] _ slices_S4096_S2048_0 (ix1 q) (ix1 (⟨q.val, by have := q.isLt; omega⟩ : Fin 4096))
    (fun a => match a with
      | ⟨0, _⟩ => by show q.val = 0 + q.val; omega)

/-- The bias row at `(0, q)` is the bias at `q`. -/
theorem bias_apply (q : Fin 2048) :
    (V m c main_v11 : S1x2048.Idx → EReal) (ix2 0 q) = (m ((c : Thread nD τ).loc main_arg3) : S2048.Idx → EReal) (ix1 q) := by
  rw [bias_term]; exact asRow_apply _ q

end Cert.KernelIdeal.HostArrays

end
-- ==== Proof.KernelValue.lean ====
/-
  The kernel's result array, at the ideal values, is the modulated layer of the arguments.

  The grid has 16 points; point `t` is given batch rows `512 t … 512 t + 511` of the inputs and of the styles, and the five
  arrays the host prepared WHOLE (their block index is `(0, 0)` at every point), and writes back rows `512 t … 512 t + 511`
  of the result. What it writes is the modulated layer of its blocks (`Body.payload_eq`); the whole arrays read back as
  the arguments transposed, sliced and laid out as rows (`HostArrays`); and the layer of a block of batch rows is that block
  of rows of the layer (`Modulated.layer_rows`). So point `t` writes block `t` of `Modulated.ofArgs` of the arguments, the
  16 blocks cover the result array (row `r` lies in block `r / 512`), and the array ends holding `ofArgs` everywhere.
-/
import proofs.«154000_j61400852464041_2_alg».proof.Proof.Gen.KernelIdeal.Value
import proofs.«154000_j61400852464041_2_alg».proof.Proof.BodyValue
import proofs.«154000_j61400852464041_2_alg».proof.Proof.HostArrays
import proofs.«154000_j61400852464041_2_alg».proof.Proof.Modulated
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Modulated Cert.KernelIdeal.Body Cert.KernelIdeal.HostArrays

variable (m : (ℓ : Loc nD τ sig) → Buf (Elt Ideal) ℓ) (ρ : Dev nD → PrngReg) (c : Dev nD)

theorem offsets_zero : (![0, 0] : Fin 2 → Nat) = fun _ => 0 := funext fun a => by fin_cases a <;> rfl

/-! ## The index maps, decided over the 16 points -/

/-- The inputs', the styles' and the result's block index at point `t` is `(t, 0)`. -/
theorem idx_inputs : ∀ t : Fin cfg0.N, win0_0.index t (0 : Fin 2) = t.val ∧ win0_0.index t (1 : Fin 2) = 0 :=
  (by decide +kernel : ∀ t : Fin grid0.N, _)
theorem idx_styles : ∀ t : Fin cfg0.N, win0_1.index t (0 : Fin 2) = t.val ∧ win0_1.index t (1 : Fin 2) = 0 :=
  (by decide +kernel : ∀ t : Fin grid0.N, _)
theorem idx_result : ∀ t : Fin cfg0.N, win0_7.index t (0 : Fin 2) = t.val ∧ win0_7.index t (1 : Fin 2) = 0 :=
  (by decide +kernel : ∀ t : Fin grid0.N, _)
/-- The five prepared arrays' block index is `(0, 0)` at every point. -/
theorem idx_weightsT : ∀ t : Fin cfg0.N, win0_2.index t (0 : Fin 2) = 0 ∧ win0_2.index t (1 : Fin 2) = 0 :=
  (by decide +kernel : ∀ t : Fin grid0.N, _)
theorem idx_styleT : ∀ t : Fin cfg0.N, win0_3.index t (0 : Fin 2) = 0 ∧ win0_3.index t (1 : Fin 2) = 0 :=
  (by decide +kernel : ∀ t : Fin grid0.N, _)
theorem idx_norms : ∀ t : Fin cfg0.N, win0_4.index t (0 : Fin 2) = 0 ∧ win0_4.index t (1 : Fin 2) = 0 :=
  (by decide +kernel : ∀ t : Fin grid0.N, _)
theorem idx_offsets : ∀ t : Fin cfg0.N, win0_5.index t (0 : Fin 2) = 0 ∧ win0_5.index t (1 : Fin 2) = 0 :=
  (by decide +kernel : ∀ t : Fin grid0.N, _)
theorem idx_bias : ∀ t : Fin cfg0.N, win0_6.index t (0 : Fin 2) = 0 ∧ win0_6.index t (1 : Fin 2) = 0 :=
  (by decide +kernel : ∀ t : Fin grid0.N, _)
/-- Every block of 512 rows of the result is some point's. -/
theorem idx_onto : ∀ q : Fin 16, ∃ t : Fin cfg0.N, win0_7.index t = ![q.val, 0] :=
  (by decide +kernel : ∀ q : Fin 16, ∃ t : Fin grid0.N, win0_7.index t = ![q.val, 0])

/-! ## The blocks at a point -/

/-- The input block at point `t` is rows `512 t …` of the inputs. -/
theorem inputs_block (t : Fin cfg0.N) (y : Fin 512) (k : Fin 2048) (h : 512 * t.val + y.val < 8192) :
    (iblk m c 0 t : Vec Ideal S512x2048 .f32) (ix2 y k)
      = (m ((c : Thread nD τ).loc main_arg0) : S8192x2048.Idx → EReal) (ix2 (⟨512 * t.val + y.val, h⟩ : Fin 8192) k) := by
  obtain ⟨e0, e1⟩ := idx_inputs t
  unfold iblk
  rw [View.read_apply]
  show V m c main_arg0 (((cfg0.win 0).blk t).view.emb (ix2 y k)) = _
  rw [V_main_arg0 m c]
  refine congrArg (m ((c : Thread nD τ).loc main_arg0) : S8192x2048.Idx → EReal) (funext fun a => Fin.ext ?_)
  match a with
  | ⟨0, _⟩ => show win0_0.index t (0 : Fin 2) * 512 + 1 * y.val = 512 * t.val + y.val; rw [e0]; omega
  | ⟨1, _⟩ => show win0_0.index t (1 : Fin 2) * 2048 + 1 * k.val = k.val; rw [e1]; omega

/-- The style block at point `t` is rows `512 t …` of the styles. -/
theorem styles_block (t : Fin cfg0.N) (y : Fin 512) (k : Fin 512) (h : 512 * t.val + y.val < 8192) :
    (iblk m c 1 t : Vec Ideal S512x512 .f32) (ix2 y k)
      = (m ((c : Thread nD τ).loc main_arg1) : S8192x512.Idx → EReal) (ix2 (⟨512 * t.val + y.val, h⟩ : Fin 8192) k) := by
  obtain ⟨e0, e1⟩ := idx_styles t
  unfold iblk
  rw [View.read_apply]
  show V m c main_arg1 (((cfg0.win 1).blk t).view.emb (ix2 y k)) = _
  rw [V_main_arg1 m c]
  refine congrArg (m ((c : Thread nD τ).loc main_arg1) : S8192x512.Idx → EReal) (funext fun a => Fin.ext ?_)
  match a with
  | ⟨0, _⟩ => show win0_1.index t (0 : Fin 2) * 512 + 1 * y.val = 512 * t.val + y.val; rw [e0]; omega
  | ⟨1, _⟩ => show win0_1.index t (1 : Fin 2) * 512 + 1 * k.val = k.val; rw [e1]; omega

/-- The transposed weights' block at any point is the whole array: the weights read transposed. -/
theorem weightsT_block (t : Fin cfg0.N) :
    (iblk m c 2 t : Vec Ideal S2048x2048 .bf16)
      = fun i => (m ((c : Thread nD τ).loc main_arg2) : S2048x2048.Idx → EReal)
          (ix2 (⟨(i 1).val, idx2_lt1 i⟩ : Fin 2048) (⟨(i 0).val, idx2_lt0 i⟩ : Fin 2048)) := by
  obtain ⟨e0, e1⟩ := idx_weightsT t
  funext i
  obtain ⟨k, o, rfl⟩ : ∃ (k o : Fin 2048), i = ix2 k o := ⟨i 0, i 1, eq_ix2 i⟩
  unfold iblk
  rw [View.read_apply]
  show V m c main_v3 (((cfg0.win 2).blk t).view.emb (ix2 k o)) = _
  have hemb : ((cfg0.win 2).blk t).view.emb (ix2 k o) = ix2 k o := funext fun a => Fin.ext (by
    match a with
    | ⟨0, _⟩ => show win0_2.index t (0 : Fin 2) * 2048 + 1 * k.val = k.val; rw [e0]; omega
    | ⟨1, _⟩ => show win0_2.index t (1 : Fin 2) * 2048 + 1 * o.val = o.val; rw [e1]; omega)
  rw [hemb]
  exact weightsT_apply m c k o

/-- The transposed style weights' block at any point is the whole array: the first 2048 rows of the style weights read
    transposed. -/
theorem styleT_block (t : Fin cfg0.N) :
    (iblk m c 3 t : Vec Ideal S512x2048 .bf16)
      = fun i => (m ((c : Thread nD τ).loc main_arg4) : S4096x512.Idx → EReal)
          (ix2 (⟨(i 1).val, Nat.lt_trans (idx2_lt1 i) (by decide)⟩ : Fin 4096) (⟨(i 0).val, idx2_lt0 i⟩ : Fin 512)) := by
  obtain ⟨e0, e1⟩ := idx_styleT t
  funext i
  obtain ⟨k, o, rfl⟩ : ∃ (k : Fin 512) (o : Fin 2048), i = ix2 k o := ⟨i 0, i 1, eq_ix2 i⟩
  unfold iblk
  rw [View.read_apply]
  show V m c main_v5 (((cfg0.win 3).blk t).view.emb (ix2 k o)) = _
  have hemb : ((cfg0.win 3).blk t).view.emb (ix2 k o) = ix2 k o := funext fun a => Fin.ext (by
    match a with
    | ⟨0, _⟩ => show win0_3.index t (0 : Fin 2) * 512 + 1 * k.val = k.val; rw [e0]; omega
    | ⟨1, _⟩ => show win0_3.index t (1 : Fin 2) * 2048 + 1 * o.val = o.val; rw [e1]; omega)
  rw [hemb]
  exact styleT_apply m c k o

/-- The row of norms, read along its row at any point, is the norms of the weight rows. -/
theorem norms_block (t : Fin cfg0.N) (q : Fin 2048) :
    (iblk m c 4 t : Vec Ideal S1x2048 .f32) (ix2 0 q) = rowNorms (m ((c : Thread nD τ).loc main_arg2)) (ix1 q) := by
  obtain ⟨e0, e1⟩ := idx_norms t
  unfold iblk
  rw [View.read_apply]
  show V m c main_v9 (((cfg0.win 4).blk t).view.emb (ix2 0 q)) = _
  have hemb : ((cfg0.win 4).blk t).view.emb (ix2 0 q) = ix2 0 q := funext fun a => Fin.ext (by
    match a with
    | ⟨0, _⟩ => show win0_4.index t (0 : Fin 2) * 1 + 1 * 0 = 0; rw [e0]
    | ⟨1, _⟩ => show win0_4.index t (1 : Fin 2) * 2048 + 1 * q.val = q.val; rw [e1]; omega)
  rw [hemb]
  exact norms_apply m c q

/-- The row of style offsets, read along its row at any point, is the first 2048 style offsets. -/
theorem offsets_block (t : Fin cfg0.N) (q : Fin 2048) :
    (iblk m c 5 t : Vec Ideal S1x2048 .f32) (ix2 0 q)
      = (m ((c : Thread nD τ).loc main_arg5) : S4096.Idx → EReal) (ix1 (⟨q.val, Nat.lt_trans q.isLt (by decide)⟩ : Fin 4096)) := by
  obtain ⟨e0, e1⟩ := idx_offsets t
  unfold iblk
  rw [View.read_apply]
  show V m c main_v10 (((cfg0.win 5).blk t).view.emb (ix2 0 q)) = _
  have hemb : ((cfg0.win 5).blk t).view.emb (ix2 0 q) = ix2 0 q := funext fun a => Fin.ext (by
    match a with
    | ⟨0, _⟩ => show win0_5.index t (0 : Fin 2) * 1 + 1 * 0 = 0; rw [e0]
    | ⟨1, _⟩ => show win0_5.index t (1 : Fin 2) * 2048 + 1 * q.val = q.val; rw [e1]; omega)
  rw [hemb]
  exact offsets_apply m c q

/-- The bias row, read along its row at any point, is the bias. -/
theorem bias_block (t : Fin cfg0.N) (q : Fin 2048) :
    (iblk m c 6 t : Vec Ideal S1x2048 .f32) (ix2 0 q) = (m ((c : Thread nD τ).loc main_arg3) : S2048.Idx → EReal) (ix1 q) := by
  obtain ⟨e0, e1⟩ := idx_bias t
  unfold iblk
  rw [View.read_apply]
  show V m c main_v11 (((cfg0.win 6).blk t).view.emb (ix2 0 q)) = _
  have hemb : ((cfg0.win 6).blk t).view.emb (ix2 0 q) = ix2 0 q := funext fun a => Fin.ext (by
    match a with
    | ⟨0, _⟩ => show win0_6.index t (0 : Fin 2) * 1 + 1 * 0 = 0; rw [e0]
    | ⟨1, _⟩ => show win0_6.index t (1 : Fin 2) * 2048 + 1 * q.val = q.val; rw [e1]; omega)
  rw [hemb]
  exact bias_apply m c q

/-! ## The result array -/

/-- What the result array ends holding: the modulated layer of the arguments, the norms those of the weight rows. -/
abbrev result : S8192x2048.Idx → EReal :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (rowNorms (m ((c : Thread nD τ).loc main_arg2)))

/-- The layer of point `t`'s blocks, at an index of the block, is the layer of the arguments at the array index the
    block index sits at: 512 t rows further down, the same column. -/
theorem block_value (t : Fin cfg0.N) (y : S512x2048.Idx) (i : S8192x2048.Idx)
    (h0 : (i 0).val = 512 * t.val + (y 0).val) (h1 : (i 1).val = (y 1).val) :
    layer (B := 512) (I := 2048) (O := 2048) (S := 512) (iblk m c 0 t : Vec Ideal S512x2048 .f32) (iblk m c 2 t : Vec Ideal S2048x2048 .bf16)
        (iblk m c 1 t : Vec Ideal S512x512 .f32) (iblk m c 3 t : Vec Ideal S512x2048 .bf16)
        (fun q => (iblk m c 5 t : Vec Ideal S1x2048 .f32) (ix2 0 q)) (fun q => (iblk m c 4 t : Vec Ideal S1x2048 .f32) (ix2 0 q))
        (fun q => (iblk m c 6 t : Vec Ideal S1x2048 .f32) (ix2 0 q)) y
      = result m c i := by
  rw [weightsT_block m c t, styleT_block m c t, funext (offsets_block m c t), funext (norms_block m c t),
    funext (bias_block m c t)]
  exact layer_rows (512 * t.val) _ _ _ _ _ _ _ _ _ (fun y k h => inputs_block m c t y k h)
    (fun y k h => styles_block m c t y k h) y i h0 h1

/-- WHAT POINT `t` WRITES BACK is block `t` of the layer of the arguments. -/
theorem flushed_eq (t : Fin cfg0.N) :
    (dats m 0 c).flushed 7 t = ((cfg0.win 7).blk t).view.read (Elt Ideal) (result m c) := by
  rw [Value.flushed7]
  unfold out0_7
  rw [View.canon_unit_zero offsets_zero]
  simp only [View.ld_unit_zero (S := S512x2048) offsets_zero, View.ld_unit_zero (S := S512x512) offsets_zero,
    View.ld_unit_zero (S := S2048x2048) offsets_zero, View.ld_unit_zero (S := S1x2048) offsets_zero]
  rw [payload_eq]
  obtain ⟨e0, e1⟩ := idx_result t
  funext y
  refine block_value m c t y (((cfg0.win 7).blk t).view.emb y) ?_ ?_
  · show win0_7.index t (0 : Fin 2) * 512 + 1 * (y 0).val = 512 * t.val + (y 0).val
    rw [e0]; omega
  · show win0_7.index t (1 : Fin 2) * 2048 + 1 * (y 1).val = (y 1).val
    rw [e1]; omega

/-- An index of the result array is in point `t`'s block iff each coordinate is in the block's range on its axis. -/
theorem mem_blk (t : Fin cfg0.N) (i : S8192x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_v12).slice (win0_7.rect t)).set ↔ _
  rw [View.set_slice_whole, Rect.mem_set_unit]
  exact Iff.rfl

/-- The 16 blocks cover the result array: row `r` lies in the block of point `r / 512`. -/
theorem cover (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 2048 ≤ (i 1).val ∧ (i 1).val < win0_7.index t (1 : Fin 2) * 2048 + 2048; omega

/-- So the result array ends holding the layer of the arguments. -/
theorem final : (dats m 0 c).arrAt 7 cfg0.N = result m c :=
  (dats m 0 c).arrAt_eq_of_cover 7 (result m c) (fun t _ => flushed_eq m c t) (cover)

/-- The kernel's run, read: the result array at the modulated layer of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference, at the ideal values, is the modulated layer of its arguments.

  The reference transposes the style weights, multiplies the styles by them, adds the style offsets (broadcast over the
  batch rows) and keeps the first 2048 columns; multiplies that by its absolute value and by the norms of the weight rows
  (broadcast over the batch rows); multiplies the product of the inputs with the transposed weights by the result; adds the
  bias (broadcast over the batch rows). Read at `(b, o)`, operation by operation, this is `Modulated.entry` of
  `∑ k, x (b, k) · w (o, k)`, `∑ k, s (b, k) · aw (o, k)`, the offset `o`, the norm of weight row `o` and the bias `o`: the
  same sums and the same grouping of the products as `Modulated.ofArgs`, so nothing is rearranged. The norms stay one
  term of the weights.
-/
import proofs.«154000_j61400852464041_2_alg».proof.Proof.Gen.ReferenceIdeal.Read
import proofs.«154000_j61400852464041_2_alg».proof.Proof.Modulated
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Modulated

/-- The reference's last stage is the modulated layer of the arguments, the norms vector being the reference's own stage
    `val_main_v10` (the square roots of the weight rows' sums of squares). -/
theorem result_eq (x0 : FVec Ideal S8192x2048 .f32) (x1 : FVec Ideal S8192x512 .f32) (x2 : FVec Ideal S2048x2048 .f32)
    (x3 : FVec Ideal S2048 .f32) (x4 : FVec Ideal S4096x512 .f32) (x5 : FVec Ideal S4096 .f32) :
    val_main_v19 (F := Ideal) x0 x1 x2 x3 x4 x5 = ofArgs x0 x1 x2 x3 x4 x5 (val_main_v10 (F := Ideal) x2) := by
  funext i
  obtain ⟨b, o, rfl⟩ : ∃ (b : Fin 8192) (o : Fin 2048), i = ix2 b o := ⟨i 0, i 1, eq_ix2 i⟩
  -- the composed index functions of the stages, at `(b, o)`
  have eL15 : ∀ k : Fin 2048, lidx_main_v15 (ix2 b o) k = ix2 b k := fun k => funext fun a => by
    match a with
    | ⟨0, _⟩ => rfl
    | ⟨1, _⟩ => rfl
  have eR15 : ∀ k : Fin 2048, idx_main_v14 (ridx_main_v15 (ix2 b o) k) = ix2 o k := fun k => funext fun a => by
    match a with
    | ⟨0, _⟩ => rfl
    | ⟨1, _⟩ => rfl
  have eL1 : ∀ k : Fin 512, lidx_main_v1 (idx_main_v5 (ix2 b o)) k = ix2 b k := fun k => funext fun a => by
    match a with
    | ⟨0, _⟩ => rfl
    | ⟨1, _⟩ => rfl
  have eR1 : ∀ k : Fin 512, idx_main_v0 (ridx_main_v1 (idx_main_v5 (ix2 b o)) k)
      = ix2 (⟨o.val, Nat.lt_trans o.isLt (by decide)⟩ : Fin 4096) k := fun k => funext fun a => by
    match a with
    | ⟨0, _⟩ => rfl
    | ⟨1, _⟩ => rfl
  have eAb : idx_main_v2 (idx_main_v3 (idx_main_v5 (ix2 b o))) = ix1 (⟨o.val, Nat.lt_trans o.isLt (by decide)⟩ : Fin 4096) :=
    funext fun a => by
      match a with
      | ⟨0, _⟩ => rfl
  have eRs : idx_main_v11 (idx_main_v12 (ix2 b o)) = ix1 o := funext fun a => by
    match a with
    | ⟨0, _⟩ => rfl
  have eBi : idx_main_v17 (idx_main_v18 (ix2 b o)) = ix1 o := funext fun a => by
    match a with
    | ⟨0, _⟩ => rfl
  rw [val_main_v19_apply, val_main_v16_apply, val_main_v15_apply, val_main_v13_apply, val_main_v9_apply, val_main_v8_apply,
    val_main_v5_apply, val_main_v4_apply, val_main_v1_apply, val_main_v3_apply, val_main_v2_apply, val_main_v12_apply,
    val_main_v11_apply, val_main_v18_apply, val_main_v17_apply]
  simp only [val_main_v14_apply, val_main_v0_apply, eL15, eR15, eL1, eR1, eAb, eRs, eBi]
  rfl

end Cert.ReferenceIdeal.RefValue

end
-- ==== Proof.lean ====
/-
  A linear layer modulated by a style, computed by a kernel over blocks of batch rows and by a plain reference: the two
  agree on the extended reals, entry by entry.

  Both compute, for batch row `b` and output feature `o`,

      (∑ k, input (b, k) · weight (o, k)) · ((e + aff_b o) · |e + aff_b o| · norm o) + bias o,
      e = ∑ k, style (b, k) · aff_w (o, k),      norm o = sqrt (0 + ∑ k, weight (o, k) · weight (o, k)),

  with the products grouped in this one way, and only the first 2048 rows of `aff_w` and entries of `aff_b` used. They
  differ in where the work is done, not in what is computed: the kernel slices and transposes the weight arrays on the
  host (narrowing them to a shorter float format, which is the identity on the extended reals), lays the three vectors out
  as rows, and walks the batch in 16 blocks of 512 rows, each block's two products accumulated into a zero array; the
  reference multiplies the whole batch at once, adds the style offsets before it slices, and broadcasts each vector over the
  batch rows. A product of a block of rows is that block of rows of the product, so no sum is reordered and no law of the
  extended reals that could fail at an infinity is needed: the precondition (finite inputs) is never opened. The norms
  are the same host term of the weights in both programs and are carried as that term.

  `Modulated` states the layer; `BodyValue` that the kernel body stores the layer of its blocks; `HostArrays` what the
  region finds in the arrays the host prepared; `KernelValue` that the kernel's result array ends holding the layer of the
  arguments; `RefValue` that the reference's result is the same layer. The three frames: each kernel program's is its
  generated frame, the reference's its generated run with the result forgotten. The idealization rewrote no operation,
  so there is nothing to preserve beyond `True`.
-/
import proofs.«154000_j61400852464041_2_alg».proof.Defs
import proofs.«154000_j61400852464041_2_alg».proof.Proof.Gen.Kernel
import proofs.«154000_j61400852464041_2_alg».proof.Proof.Gen.Kernel.Skeleton
import proofs.«154000_j61400852464041_2_alg».proof.Proof.Gen.Kernel.Launch
import proofs.«154000_j61400852464041_2_alg».proof.Proof.Gen.Kernel.Points
import proofs.«154000_j61400852464041_2_alg».proof.Proof.Gen.Kernel.Frame
import proofs.«154000_j61400852464041_2_alg».proof.Proof.Gen.KernelIdeal
import proofs.«154000_j61400852464041_2_alg».proof.Proof.Gen.KernelIdeal.Skeleton
import proofs.«154000_j61400852464041_2_alg».proof.Proof.Gen.KernelIdeal.Launch
import proofs.«154000_j61400852464041_2_alg».proof.Proof.Gen.KernelIdeal.Points
import proofs.«154000_j61400852464041_2_alg».proof.Proof.Gen.KernelIdeal.Frame
import proofs.«154000_j61400852464041_2_alg».proof.Proof.Gen.ReferenceIdeal
import proofs.«154000_j61400852464041_2_alg».proof.Proof.Gen.KernelIdeal.Value
import proofs.«154000_j61400852464041_2_alg».proof.Proof.Gen.ReferenceIdeal.Run
import proofs.«154000_j61400852464041_2_alg».proof.Proof.Gen.ReferenceIdeal.Read
import proofs.«154000_j61400852464041_2_alg».proof.Proof.Gen.Pre_finite_inputs
import proofs.«154000_j61400852464041_2_alg».proof.Proof.KernelValue
import proofs.«154000_j61400852464041_2_alg».proof.Proof.RefValue
import Idealize.ShloMosaic.Adequacy
import Idealize.ShloMosaic.Init

noncomputable section

namespace Cert.Proof

open Idealize.ShloMosaic Idealize.SL.Sem

/-- The norms of the weight rows are ONE term of the weights in the two programs: the square root of the rows' sums of
    squares of `weight · weight`, summed from the zero word. -/
theorem norms_agree (w : FVec Ideal Cert.KernelIdeal.S2048x2048 .f32) :
    Cert.ReferenceIdeal.Read.val_main_v10 (F := Ideal) w = Cert.KernelIdeal.HostArrays.rowNorms w := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the modulated layer of the arguments in their
    result arrays: the kernel by `Whole.run`, the reference by its run read stage by stage (`RefValue.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5⟩ := hagree c
  rw [(h c).1, Cert.ReferenceIdeal.Read.val_main_v19_eq, Cert.ReferenceIdeal.RefValue.result_eq, norms_agree,
    a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
